-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S4096x11008 : Shape := ⟨2, ![4096, 11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S8192x4096 .f32) (main_arg1 : FVec F S11008x4096 .f32) (main_arg2 : FVec F S11008x4096 .f32) (main_arg3 : FVec F S4096x11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S8192x4096 : Shape := ⟨2, ![8192, 4096]⟩
abbrev S11008x4096 : Shape := ⟨2, ![11008, 4096]⟩
abbrev S4096x11008 : Shape := ⟨2, ![4096, 11008]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .bf16⟩
  | .hbm, ⟨5, _⟩ => ⟨S11008x4096, .bf16⟩
  | .hbm, ⟨6, _⟩ => ⟨S11008x4096, .bf16⟩
  | .hbm, ⟨7, _⟩ => ⟨S4096x11008, .bf16⟩
  | .hbm, ⟨8, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | .local _ .vmem, ⟨9, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S11008x4096 : Shape := ⟨2, ![11008, 4096]⟩
abbrev S4096x11008 : Shape := ⟨2, ![4096, 11008]⟩
abbrev S8192x11008 : Shape := ⟨2, ![8192, 11008]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x11008, .f32⟩
  | .hbm, ⟨5, _⟩ => ⟨S8192x11008, .f32⟩
  | .hbm, ⟨6, _⟩ => ⟨S4096x11008, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S11008x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  transposes_S11008x4096_S4096x11008_1_0 : S11008x4096.Transposes [1, 0] S4096x11008
  bcast_S_S8192x11008 : S_.BroadcastsInDim S8192x11008 (![] : Fin 0 → Fin S8192x11008.rank)
  transposes_S4096x11008_S11008x4096_1_0 : S4096x11008.Transposes [1, 0] S11008x4096
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.FFN.lean ====
/-
  The gated feed-forward network as one function of its four arrays, over the extended reals.

  For tokens `X` ([8192, 4096]) and weights `Wg`, `Wu` ([11008, 4096]) and `Wd` ([4096, 11008]):

    gate r n = ∑ d, X (r, d) · Wg (n, d)          up r n = ∑ d, X (r, d) · Wu (n, d)
    hidden r n = gate r n · σ (gate r n) · up r n,  σ z = 1 / (1 + e^(-z))
    out (r, h) = ∑ n, hidden r n · Wd (h, n)

  The sum over the 11008 intermediate coordinates `n` is also the sum over 43 blocks of 256 of the sums inside a
  block. Only commutativity and associativity of addition are involved, so no summand has to be finite.
-/
import Idealize.ShloMosaic.PureOps.Ideal
import Idealize.ShloMosaic.Lib.ValueIdx
import proofs.«118489_j71528385347979_2_alg».proof.Proof.LibBlockSum

noncomputable section

namespace Cert.FFN

open Idealize.ShloMosaic Idealize.ShloMosaic.ValueIdx

/-- Row `r` of `X` against row `n` of a weight `W`: `∑ d, X (r, d) · W (n, d)`. -/
def proj {T N D : Nat} (X : (⟨2, ![T, D]⟩ : Shape).Idx → EReal) (W : (⟨2, ![N, D]⟩ : Shape).Idx → EReal)
    (r : Fin T) (n : Fin N) : EReal :=
  ∑ d : Fin D, X (ix2 r d) * W (ix2 n d)

/-- The gated activation of two pre-activations: `g · σ g · u`. -/
def act (g u : EReal) : EReal := g * Ideal.logistic g * u

/-- The hidden value of token `r` at intermediate coordinate `n`. -/
def hidden {T N D : Nat} (X : (⟨2, ![T, D]⟩ : Shape).Idx → EReal) (Wg Wu : (⟨2, ![N, D]⟩ : Shape).Idx → EReal)
    (r : Fin T) (n : Fin N) : EReal :=
  act (proj X Wg r n) (proj X Wu r n)

/-- The network's output at `(r, h)`: the hidden row of token `r` against row `h` of the down projection. -/
def out (X : (⟨2, ![8192, 4096]⟩ : Shape).Idx → EReal) (Wg Wu : (⟨2, ![11008, 4096]⟩ : Shape).Idx → EReal)
    (Wd : (⟨2, ![4096, 11008]⟩ : Shape).Idx → EReal) (r : Fin 8192) (h : Fin 4096) : EReal :=
  ∑ n : Fin 11008, hidden X Wg Wu r n * Wd (ix2 h n)

/-- The whole output array. -/
def ffn (X : (⟨2, ![8192, 4096]⟩ : Shape).Idx → EReal) (Wg Wu : (⟨2, ![11008, 4096]⟩ : Shape).Idx → EReal)
    (Wd : (⟨2, ![4096, 11008]⟩ : Shape).Idx → EReal) : (⟨2, ![8192, 4096]⟩ : Shape).Idx → EReal :=
  fun i => out X Wg Wu Wd (i 0) (i 1)

/-- Position `j` of block `k` among the 11008 intermediate coordinates (43 blocks of 256). -/
def mid (k : Fin 43) (j : Fin 256) : Fin 11008 :=
  ⟨256 * k.val + j.val, Cert.Lib.BlockSum.block_index_lt (by norm_num : 43 * 256 = 11008) k j⟩

/-- The output as the sum over the 43 blocks of the intermediate axis of each block's own contribution. -/
theorem out_blocks (X : (⟨2, ![8192, 4096]⟩ : Shape).Idx → EReal) (Wg Wu : (⟨2, ![11008, 4096]⟩ : Shape).Idx → EReal)
    (Wd : (⟨2, ![4096, 11008]⟩ : Shape).Idx → EReal) (r : Fin 8192) (h : Fin 4096) :
    out X Wg Wu Wd r h = ∑ k : Fin 43, ∑ j : Fin 256, hidden X Wg Wu r (mid k j) * Wd (ix2 h (mid k j)) :=
  Cert.Lib.BlockSum.sum_eq_sum_blocks 43 256 (by norm_num) _

end Cert.FFN

end
-- ==== Proof.RefSide.lean ====
/-
  The reference computes the gated feed-forward network.

  Read index by index, the reference's last product is the sum over the intermediate coordinate `n` of the hidden
  value of token `r` at `n` times the down projection's entry `(h, n)`: its transposes only swap the two coordinates
  of a weight, and its spelled-out `1 / (1 + e^(-g))` is the logistic function.
-/
import proofs.«118489_j71528385347979_2_alg».proof.Proof.Gen.ReferenceIdeal.Read
import Idealize.ShloMosaic.Lib.IdealHost
import proofs.«118489_j71528385347979_2_alg».proof.Proof.FFN

noncomputable section

namespace Cert.ReferenceIdeal.RefValue

open Cert.ReferenceIdeal Cert.ReferenceIdeal.Gen Cert.ReferenceIdeal.Read
open Idealize.ShloMosaic Idealize.ShloMosaic.ValueIdx

variable (x0 : (⟨S8192x4096, .f32⟩ : BufTy).Contents (Elt Ideal))
variable (x1 x2 : (⟨S11008x4096, .f32⟩ : BufTy).Contents (Elt Ideal))
variable (x3 : (⟨S4096x11008, .f32⟩ : BufTy).Contents (Elt Ideal))

/-- The first product (against the transposed gate weight) at `(r, n)` is row `r` of the tokens against row `n` of
    the weight. -/
theorem gate_apply (i : S8192x4096.Idx) (n : Fin 11008) :
    val_main_v1 (F := Ideal) x0 x1 (lidx_main_v7 i n) = Cert.FFN.proj x0 x1 (i 0) n := by
  rw [val_main_v1_apply]
  unfold Cert.FFN.proj
  refine Finset.sum_congr rfl fun d _ => ?_
  rw [val_main_v0_apply]
  have e1 : lidx_main_v1 (lidx_main_v7 i n) d = ix2 (i 0) d :=
    funext fun a => by match a with | ⟨0, _⟩ => rfl | ⟨1, _⟩ => rfl
  have e2 : idx_main_v0 (ridx_main_v1 (lidx_main_v7 i n) d) = ix2 n d :=
    funext fun a => by match a with | ⟨0, _⟩ => rfl | ⟨1, _⟩ => rfl
  rw [e1, e2]
  rfl

/-- The second product (against the transposed up weight) at `(r, n)`. -/
theorem up_apply (i : S8192x4096.Idx) (n : Fin 11008) :
    val_main_v3 (F := Ideal) x0 x2 (lidx_main_v7 i n) = Cert.FFN.proj x0 x2 (i 0) n := by
  rw [val_main_v3_apply]
  unfold Cert.FFN.proj
  refine Finset.sum_congr rfl fun d _ => ?_
  rw [val_main_v2_apply]
  have e1 : lidx_main_v3 (lidx_main_v7 i n) d = ix2 (i 0) d :=
    funext fun a => by match a with | ⟨0, _⟩ => rfl | ⟨1, _⟩ => rfl
  have e2 : idx_main_v2 (ridx_main_v3 (lidx_main_v7 i n) d) = ix2 n d :=
    funext fun a => by match a with | ⟨0, _⟩ => rfl | ⟨1, _⟩ => rfl
  rw [e1, e2]
  rfl

/-- The reference's result is the network's output array. -/
theorem result_eq : val_main_v7 (F := Ideal) x0 x1 x2 x3 = Cert.FFN.ffn x0 x1 x2 x3 := by
  funext i
  rw [val_main_v7_apply]
  show _ = Cert.FFN.out x0 x1 x2 x3 (i 0) (i 1)
  unfold Cert.FFN.out
  refine Finset.sum_congr rfl fun n _ => ?_
  have e3 : idx_main_v6 (ridx_main_v7 i n) = ix2 (i 1) n :=
    funext fun a => by match a with | ⟨0, _⟩ => rfl | ⟨1, _⟩ => rfl
  rw [val_main_v6_apply, e3, val_main_v5_apply, val_main_v4_apply, val_main_call0_v5_apply, val_main_call0_v4_apply,
    val_main_call0_cst_0_apply, val_main_call0_v3_apply, val_main_call0_v2_apply, val_main_call0_cst_apply,
    val_main_call0_v1_apply, val_main_call0_v0_apply, up_apply, gate_apply]
  simp only [Cert.FFN.hidden, Cert.FFN.act, Ideal.logistic, Ideal.mulf_def, Ideal.hostDivf_def, Ideal.addf_def,
    Ideal.hostUnary_exp_def, Ideal.hostNegf_def, Ideal.negf_def, Ideal.ofBits_def, Ideal.ofBits_one_f32]
  rfl

end Cert.ReferenceIdeal.RefValue

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.KernelPoint.lean ====
/-
  What one grid point adds to its output block.

  At a grid point the kernel holds a block of 512 token rows, a block of 256 rows of each of the gate and up weights,
  and the matching 256 columns of the down projection. It forms the 512 × 256 gate and up products of the token block
  with the two weight blocks, the hidden block `g · σ g · u`, and adds the hidden block's product with the down block
  to what the output block held: entry `(p, h)` grows by `∑ j, hidden p j · Wd (h, j)`, the sum over the 256
  intermediate coordinates of this block. The first point of a run starts from the zero block.
-/
import proofs.«118489_j71528385347979_2_alg».proof.Proof.Gen.KernelIdeal.Skeleton
import Idealize.ShloMosaic.Lib.Pipeline.Value
import Idealize.ShloMosaic.PureOps.Ideal.Laws
import proofs.«118489_j71528385347979_2_alg».proof.Proof.LibTransposedProduct
import proofs.«118489_j71528385347979_2_alg».proof.Proof.FFN

noncomputable section

namespace Cert.KernelIdeal.Point

open Cert.KernelIdeal Cert.KernelIdeal.Gen Idealize.ShloMosaic Idealize.ShloMosaic.ValueIdx

/-- Both of the kernel's products contract the last axis of both operands. -/
theorem dot_in_eq : dot_S512x4096_S256x4096_S512x256_1_1_0_0_n_n = DotDims.transposedRhs 512 4096 256 := rfl
theorem dot_out_eq : dot_S512x256_S4096x256_S512x4096_1_1_0_0_n_n = DotDims.transposedRhs 512 256 4096 := rfl

/-- What a point adds to entry `i` of its output block, from its four input blocks. -/
def contrib (x0 : FVec Ideal S512x4096 .bf16) (x1 x2 : FVec Ideal S256x4096 .bf16) (x3 : FVec Ideal S4096x256 .bf16) :
    S512x4096.Idx → EReal :=
  fun i => ∑ j : Fin 256, Cert.FFN.hidden x0 x1 x2 (i 0) j * x3 (ix2 (i 1) j)

/-- The product of the token block with a weight block, into zero, at `(p, j)`. -/
theorem proj_apply (x0 : FVec Ideal S512x4096 .bf16) (w : FVec Ideal S256x4096 .bf16) (p : Fin 512) (j : Fin 256) :
    matmul dot_S512x4096_S256x4096_S512x256_1_1_0_0_n_n none x0 w (constant (F := Ideal) S512x256 .f32 0x00000000#32) (ix2 p j)
      = Cert.FFN.proj x0 w p j :=
  Cert.Lib.TransposedProduct.matmul_apply _ dot_in_eq none x0 w p j

/-- The zero block a run starts from. -/
theorem pay1_apply (i : S512x4096.Idx) : k0_pay1 (F := Ideal) i = 0 := by
  unfold k0_pay1
  show Ideal.ofBits .f32 0x00000000#32 = 0
  exact Ideal.ofBits_zero_f32

/-- The accumulating store at `(p, h)`: what the block held plus this point's addend. -/
theorem pay2_apply (x0 : FVec Ideal S512x4096 .bf16) (x1 x2 : FVec Ideal S256x4096 .bf16) (x3 : FVec Ideal S4096x256 .bf16)
    (acc : FVec Ideal S512x4096 .f32) (p : Fin 512) (h : Fin 4096) :
    k0_pay2 (F := Ideal) x0 x1 x2 x3 acc (ix2 p h) = acc (ix2 p h) + contrib x0 x1 x2 x3 (ix2 p h) := by
  unfold k0_pay2
  simp only [shapeCast_self]
  refine congrArg (fun z => acc (ix2 p h) + z) ?_
  refine (Cert.Lib.TransposedProduct.matmul_apply _ dot_out_eq none _ x3 p h).trans ?_
  unfold contrib
  refine Finset.sum_congr rfl fun j _ => ?_
  refine congrArg (fun z => z * x3 (ix2 h j)) ?_
  show matmul dot_S512x4096_S256x4096_S512x256_1_1_0_0_n_n none x0 x1 (constant (F := Ideal) S512x256 .f32 0x00000000#32) (ix2 p j)
      * Ideal.logistic (matmul dot_S512x4096_S256x4096_S512x256_1_1_0_0_n_n none x0 x1 (constant (F := Ideal) S512x256 .f32 0x00000000#32) (ix2 p j))
      * matmul dot_S512x4096_S256x4096_S512x256_1_1_0_0_n_n none x0 x2 (constant (F := Ideal) S512x256 .f32 0x00000000#32) (ix2 p j)
    = Cert.FFN.act (Cert.FFN.proj x0 x1 p j) (Cert.FFN.proj x0 x2 p j)
  rw [proj_apply, proj_apply]
  rfl

end Cert.KernelIdeal.Point

end
-- ==== Proof.KernelBlocks.lean ====
/-
  The blocks the kernel reads at a grid point.

  The grid has 16 × 43 points, visited row by row: point `t` works on token block `t / 43` and on block `t % 43` of
  the intermediate axis. The arrays the kernel stages are the four arguments converted to a narrower float format,
  which over the extended reals changes nothing. So at point `t`

    the token block at (p, d) is X (512 · (t / 43) + p, d),
    the gate and up blocks at (j, d) are Wg, Wu (256 · (t % 43) + j, d),
    the down block at (h, j) is Wd (h, 256 · (t % 43) + j).
-/
import proofs.«118489_j71528385347979_2_alg».proof.Proof.Gen.KernelIdeal.Frame.Runs
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The staged arrays are the arguments -/

theorem V_v0 (c : Dev nD) : (V m c main_v0 : S8192x4096.Idx → EReal) = m ((c : Thread nD τ).loc main_arg0) := by
  dsimp only [Gen.V, Gen.hostOps0]; after_results; rfl

theorem V_v1 (c : Dev nD) : (V m c main_v1 : S11008x4096.Idx → EReal) = m ((c : Thread nD τ).loc main_arg1) := by
  dsimp only [Gen.V, Gen.hostOps0]; after_results; rfl

theorem V_v2 (c : Dev nD) : (V m c main_v2 : S11008x4096.Idx → EReal) = m ((c : Thread nD τ).loc main_arg2) := by
  dsimp only [Gen.V, Gen.hostOps0]; after_results; rfl

theorem V_v3 (c : Dev nD) : (V m c main_v3 : S4096x11008.Idx → EReal) = m ((c : Thread nD τ).loc main_arg3) := by
  dsimp only [Gen.V, Gen.hostOps0]; after_results; rfl

/-! ## The index maps over the grid -/

/-- Block indices of the four input windows at point `t`: the token block follows `t / 43`, the three weight blocks
    follow `t % 43`. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43 :=
  (by decide +kernel : ∀ t : Fin grid0.N, _)

theorem row_lt (t : Fin cfg0.N) (p : Fin 512) : 512 * (t.val / 43) + p.val < 8192 := by
  have h := t.isLt; have hN : cfg0.N = 688 := N_0; omega

theorem mid_lt (t : Fin cfg0.N) (j : Fin 256) : 256 * (t.val % 43) + j.val < 11008 := by
  have h := Nat.mod_lt t.val (by norm_num : 0 < 43); omega

/-! ## The four blocks read at their coordinates -/

theorem blk0_apply (c : Dev nD) (t : Fin cfg0.N) (p : Fin 512) (d : Fin 4096) :
    iblk m c 0 t (ix2 p d) = m ((c : Thread nD τ).loc main_arg0) (ix2 ⟨512 * (t.val / 43) + p.val, row_lt t p⟩ d) := by
  show V m c main_v0 (((cfg0.win 0).blk t).view.emb (ix2 p d)) = _
  rw [V_v0]
  refine congrArg _ (funext fun a => Fin.ext ?_)
  obtain ⟨e0, e1, -⟩ := idx_facts t
  match a with
  | ⟨0, _⟩ => show win0_0.index t (0 : Fin 2) * 512 + 1 * p.val = 512 * (t.val / 43) + p.val; rw [e0]; omega
  | ⟨1, _⟩ => show win0_0.index t (1 : Fin 2) * 4096 + 1 * d.val = d.val; rw [e1]; omega

theorem blk1_apply (c : Dev nD) (t : Fin cfg0.N) (j : Fin 256) (d : Fin 4096) :
    iblk m c 1 t (ix2 j d) = m ((c : Thread nD τ).loc main_arg1) (ix2 ⟨256 * (t.val % 43) + j.val, mid_lt t j⟩ d) := by
  show V m c main_v1 (((cfg0.win 1).blk t).view.emb (ix2 j d)) = _
  rw [V_v1]
  refine congrArg _ (funext fun a => Fin.ext ?_)
  obtain ⟨-, -, e0, e1, -⟩ := idx_facts t
  match a with
  | ⟨0, _⟩ => show win0_1.index t (0 : Fin 2) * 256 + 1 * j.val = 256 * (t.val % 43) + j.val; rw [e0]; omega
  | ⟨1, _⟩ => show win0_1.index t (1 : Fin 2) * 4096 + 1 * d.val = d.val; rw [e1]; omega

theorem blk2_apply (c : Dev nD) (t : Fin cfg0.N) (j : Fin 256) (d : Fin 4096) :
    iblk m c 2 t (ix2 j d) = m ((c : Thread nD τ).loc main_arg2) (ix2 ⟨256 * (t.val % 43) + j.val, mid_lt t j⟩ d) := by
  show V m c main_v2 (((cfg0.win 2).blk t).view.emb (ix2 j d)) = _
  rw [V_v2]
  refine congrArg _ (funext fun a => Fin.ext ?_)
  obtain ⟨-, -, -, -, e0, e1, -⟩ := idx_facts t
  match a with
  | ⟨0, _⟩ => show win0_2.index t (0 : Fin 2) * 256 + 1 * j.val = 256 * (t.val % 43) + j.val; rw [e0]; omega
  | ⟨1, _⟩ => show win0_2.index t (1 : Fin 2) * 4096 + 1 * d.val = d.val; rw [e1]; omega

theorem blk3_apply (c : Dev nD) (t : Fin cfg0.N) (h : Fin 4096) (j : Fin 256) :
    iblk m c 3 t (ix2 h j) = m ((c : Thread nD τ).loc main_arg3) (ix2 h ⟨256 * (t.val % 43) + j.val, mid_lt t j⟩) := by
  show V m c main_v3 (((cfg0.win 3).blk t).view.emb (ix2 h j)) = _
  rw [V_v3]
  refine congrArg _ (funext fun a => Fin.ext ?_)
  obtain ⟨-, -, -, -, -, -, e0, e1⟩ := idx_facts t
  match a with
  | ⟨0, _⟩ => show win0_3.index t (0 : Fin 2) * 4096 + 1 * h.val = h.val; rw [e0]; omega
  | ⟨1, _⟩ => show win0_3.index t (1 : Fin 2) * 256 + 1 * j.val = 256 * (t.val % 43) + j.val; rw [e1]; omega

end Cert.KernelIdeal.Blocks

end
-- ==== Proof.KernelFold.lean ====
/-
  The kernel's output array is the gated feed-forward network.

  Output row `r` lies in token block `q = r / 512`, at place `p = r % 512`. The 43 grid points `43 q, …, 43 q + 42` work
  on that block: the first stores zero plus its addend, every later one adds its own addend to what the block held,
  and the last one's block is written back. So entry `(p, h)` of the written block is the sum over the 43 points of
  their addends, and the addend of point `43 q + k` is the sum over the 256 intermediate coordinates of block `k` of
  `hidden r n · Wd (h, n)`: together the sum over all 11008 coordinates, regrouped in blocks.
-/
import proofs.«118489_j71528385347979_2_alg».proof.Proof.Gen.KernelIdeal.Value
import proofs.«118489_j71528385347979_2_alg».proof.Proof.KernelPoint
import proofs.«118489_j71528385347979_2_alg».proof.Proof.KernelBlocks
import proofs.«118489_j71528385347979_2_alg».proof.Proof.FFN

noncomputable section

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- What grid point `n` adds to its output block (zero for a number past the grid). -/
def addend (c : Dev nD) (n : ℕ) : S512x4096.Idx → EReal := fun i =>
  if h : n < cfg0.N then
    Point.contrib (iblk m c 0 ⟨n, h⟩) (iblk m c 1 ⟨n, h⟩) (iblk m c 2 ⟨n, h⟩) (iblk m c 3 ⟨n, h⟩) i
  else 0

/-- The first point of a run leaves zero plus its addend. -/
theorem reset_apply (c : Dev nD) (n : ℕ) (h : n < cfg0.N) (i : S512x4096.Idx) :
    Value.reset4 m c n h i = 0 + addend m c n i := by
  obtain ⟨p, hh, rfl⟩ : ∃ (p : Fin 512) (hh : Fin 4096), i = ix2 p hh := ⟨i 0, i 1, eq_ix2 i⟩
  unfold Value.reset4 addend
  rw [dif_pos h]
  refine (Point.pay2_apply (iblk m c 0 ⟨n, h⟩) (iblk m c 1 ⟨n, h⟩) (iblk m c 2 ⟨n, h⟩) (iblk m c 3 ⟨n, h⟩)
    (k0_pay1 (F := Ideal)) p hh).trans ?_
  rw [Point.pay1_apply]

/-- A later point adds its addend to what the block held. -/
theorem step_apply (c : Dev nD) (n : ℕ) (h : n < cfg0.N) (acc : S512x4096.Idx → EReal) (i : S512x4096.Idx) :
    Value.step4 m c n h acc i = acc i + addend m c n i := by
  obtain ⟨p, hh, rfl⟩ : ∃ (p : Fin 512) (hh : Fin 4096), i = ix2 p hh := ⟨i 0, i 1, eq_ix2 i⟩
  unfold Value.step4 addend
  rw [dif_pos h]
  exact Point.pay2_apply (iblk m c 0 ⟨n, h⟩) (iblk m c 1 ⟨n, h⟩) (iblk m c 2 ⟨n, h⟩) (iblk m c 3 ⟨n, h⟩) acc p hh

/-- The block after the 43 points of run `q`: the sum of their addends. -/
theorem fold_apply (c : Dev nD) (q : ℕ) (hq : 43 * q + 42 < cfg0.N) (i : S512x4096.Idx) :
    Pipeline.accAt (Value.reset4 m c) (Value.step4 m c) (43 * q) 42 hq i
      = ∑ s ∈ Finset.range 43, addend m c (43 * q + s) i :=
  (Pipeline.accAt_add_apply (Value.reset4 m c) (Value.step4 m c) (fun _ => (0 : EReal)) (addend m c) (43 * q) 42
    (fun h i => reset_apply m c _ h i) (fun n h acc i _ _ => step_apply m c n h acc i) 42 le_rfl hq i).trans
    (zero_add _)

/-- The hidden value formed from the blocks of point `t` is the network's hidden value at the row and the
    intermediate coordinate those blocks hold. -/
theorem hidden_blocks (c : Dev nD) (t : Fin cfg0.N) (p : Fin 512) (j : Fin 256) (r : Fin 8192) (n : Fin 11008)
    (hr : 512 * (t.val / 43) + p.val = r.val) (hn : 256 * (t.val % 43) + j.val = n.val) :
    Cert.FFN.hidden (T := 512) (N := 256) (D := 4096) (iblk m c 0 t) (iblk m c 1 t) (iblk m c 2 t) p j
      = Cert.FFN.hidden (m ((c : Thread nD τ).loc main_arg0)) (m ((c : Thread nD τ).loc main_arg1))
          (m ((c : Thread nD τ).loc main_arg2)) r n := by
  have er : (⟨512 * (t.val / 43) + p.val, Blocks.row_lt t p⟩ : Fin 8192) = r := Fin.ext hr
  have en : (⟨256 * (t.val % 43) + j.val, Blocks.mid_lt t j⟩ : Fin 11008) = n := Fin.ext hn
  unfold Cert.FFN.hidden Cert.FFN.proj
  simp only [Blocks.blk0_apply, Blocks.blk1_apply, Blocks.blk2_apply, er, en]

/-- The output array at `(r, h)`. -/
theorem G4_apply (c : Dev nD) (r : Fin 8192) (h : Fin 4096) :
    (Value.G4 (F := Ideal) m c (ix2 r h) : EReal)
      = Cert.FFN.out (m ((c : Thread nD τ).loc main_arg0)) (m ((c : Thread nD τ).loc main_arg1))
          (m ((c : Thread nD τ).loc main_arg2)) (m ((c : Thread nD τ).loc main_arg3)) r h := by
  have hN : cfg0.N = 688 := N_0
  have hrlt := r.isLt
  have hhlt := h.isLt
  have hrun : Value.run4Of (ix2 r h) = r.val / 512 := by
    show 1 * (r.val / 512 - 0) + 1 * (h.val / 4096 - 0) = r.val / 512
    omega
  have hloc : Value.loc4Of (ix2 r h) = ix2 (⟨r.val % 512, Nat.mod_lt _ (by norm_num)⟩ : Fin 512) h :=
    funext fun a => by
      match a with
      | ⟨0, _⟩ => rfl
      | ⟨1, _⟩ => exact Fin.ext (Nat.mod_eq_of_lt h.isLt)
  unfold Value.G4
  rw [dif_pos (show 43 * Value.run4Of (ix2 r h) + 42 < cfg0.N by rw [hrun]; omega), fold_apply, hrun, hloc,
    Cert.FFN.out_blocks, Finset.sum_range]
  show @Eq EReal _ _
  refine Finset.sum_congr rfl fun k _ => ?_
  have hk := k.isLt
  have ht : 43 * (r.val / 512) + k.val < cfg0.N := by omega
  unfold addend
  rw [dif_pos ht]
  show ∑ j : Fin 256, Cert.FFN.hidden (T := 512) (N := 256) (D := 4096) (iblk m c 0 ⟨43 * (r.val / 512) + k.val, ht⟩)
      (iblk m c 1 ⟨43 * (r.val / 512) + k.val, ht⟩) (iblk m c 2 ⟨43 * (r.val / 512) + k.val, ht⟩)
      (⟨r.val % 512, Nat.mod_lt _ (by norm_num)⟩ : Fin 512) j
      * iblk m c 3 ⟨43 * (r.val / 512) + k.val, ht⟩ (ix2 h j) = _
  refine Finset.sum_congr rfl fun j _ => ?_
  have hr : 512 * ((43 * (r.val / 512) + k.val) / 43) + r.val % 512 = r.val := by omega
  have hn : 256 * ((43 * (r.val / 512) + k.val) % 43) + j.val = (Cert.FFN.mid k j).val := by
    show 256 * ((43 * (r.val / 512) + k.val) % 43) + j.val = 256 * k.val + j.val
    omega
  rw [hidden_blocks m c ⟨43 * (r.val / 512) + k.val, ht⟩ ⟨r.val % 512, Nat.mod_lt _ (by norm_num)⟩ j r
    (Cert.FFN.mid k j) hr hn, Blocks.blk3_apply]
  rw [show (⟨256 * ((43 * (r.val / 512) + k.val) % 43) + j.val,
    Blocks.mid_lt ⟨43 * (r.val / 512) + k.val, ht⟩ j⟩ : Fin 11008) = Cert.FFN.mid k j from Fin.ext hn]

/-- The output array is the network's. -/
theorem G4_eq (c : Dev nD) :
    Value.G4 (F := Ideal) m c
      = Cert.FFN.ffn (m ((c : Thread nD τ).loc main_arg0)) (m ((c : Thread nD τ).loc main_arg1))
          (m ((c : Thread nD τ).loc main_arg2)) (m ((c : Thread nD τ).loc main_arg3)) := by
  funext i
  obtain ⟨r, h, rfl⟩ : ∃ (r : Fin 8192) (h : Fin 4096), i = ix2 r h := ⟨i 0, i 1, eq_ix2 i⟩
  exact G4_apply m c r h

end Cert.KernelIdeal.Fold

end
-- ==== Proof.lean ====
/-
  A gated feed-forward network computed block by block against the same network computed whole.

  Both programs compute, for tokens `X` and weights `Wg`, `Wu`, `Wd`,

    out (r, h) = ∑ n, (g r n · σ (g r n) · u r n) · Wd (h, n),   g = X · Wgᵀ,  u = X · Wuᵀ,  σ z = 1 / (1 + e^(-z)).

  The reference forms the two 8192 × 11008 products, the hidden array and the last product, each whole. The kernel
  works on 16 blocks of 512 token rows; for each it walks the 43 blocks of 256 intermediate coordinates, forms the
  hidden block of that pair, and accumulates the hidden block's product with the matching 256 columns of `Wd` into
  the output block, which starts at zero. Over the extended reals the narrower float format the kernel's operands
  pass through is the identity, a product into a zero accumulator is the plain sum, and the logistic function is the
  reference's spelled-out quotient; so the kernel's entry is the reference's sum over the 11008 coordinates regrouped
  into 43 blocks of 256. Only commutativity and associativity of addition are used, hence no finiteness of the inputs.
-/
import proofs.«118489_j71528385347979_2_alg».proof.Defs
import proofs.«118489_j71528385347979_2_alg».proof.Proof.Gen.Kernel.Frame
import proofs.«118489_j71528385347979_2_alg».proof.Proof.Gen.KernelIdeal.Value
import proofs.«118489_j71528385347979_2_alg».proof.Proof.Gen.Pre_finite_inputs
import proofs.«118489_j71528385347979_2_alg».proof.Proof.Gen.ReferenceIdeal.Run
import proofs.«118489_j71528385347979_2_alg».proof.Proof.RefSide
import proofs.«118489_j71528385347979_2_alg».proof.Proof.KernelFold
import Idealize.ShloMosaic.Adequacy
import Idealize.ShloMosaic.Init

noncomputable section

namespace Cert.Proof

open Idealize.ShloMosaic Idealize.SL.Sem

/-- The idealized kernel runs and leaves its arguments unchanged: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments unchanged: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the four arguments both programs end with the network's output array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.KernelIdeal.Fold.G4_eq]
  simp only [hagree c]
  exact (Cert.ReferenceIdeal.Read.val_main_v7_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
